-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x96x96x128 : Shape := ⟨4, ![32, 96, 96, 128]⟩
abbrev S8836x9x1 : Shape := ⟨3, ![8836, 9, 1]⟩
abbrev S_ : Shape := ⟨0, ![]⟩

class Facts : Prop where
  bcast_S_S32x96x96x128 : S_.BroadcastsInDim S32x96x96x128 (![] : Fin 0 → Fin S32x96x96x128.rank)
  reducesTo_S32x96x96x128_S_d0_1_2_3 : S32x96x96x128.ReducesTo [0, 1, 2, 3] S_
  h_S_ : 0 < S_.numel
  bcast_S_S8836x9x1 : S_.BroadcastsInDim S8836x9x1 (![] : Fin 0 → Fin S8836x9x1.rank)
  reducesTo_S8836x9x1_S_d0_1_2 : S8836x9x1.ReducesTo [0, 1, 2] S_

variable [Facts]

def fn {F : FTy → Type} [FloatOps F] (main_arg0 : FVec F S32x96x96x128 .f32) (main_arg1 : FVec F S8836x9x1 .f32) : IVec S_ 1 :=
  let main_v0 : FVec F S32x96x96x128 .f32 := Host.absf main_arg0
  let main_cst : FVec F S_ .f32 := constant S_ .f32 0x7F800000#32
  let main_v1 : FVec F S32x96x96x128 .f32 := broadcastInDim S32x96x96x128 ![] bcast_S_S32x96x96x128 main_cst
  let main_v2 : IVec S32x96x96x128 1 := cmpf .olt main_v0 main_v1
  let main_c : IVec S_ 1 := constantI S_ 1 1#1
  let main_v3 : IVec S_ 1 := (fun x v => Host.reduce IntOp.andi x v reducesTo_S32x96x96x128_S_d0_1_2_3 h_S_) main_v2 main_c
  let main_v4 : FVec F S8836x9x1 .f32 := Host.absf main_arg1
  let main_cst_0 : FVec F S_ .f32 := constant S_ .f32 0x7F800000#32
  let main_v5 : FVec F S8836x9x1 .f32 := broadcastInDim S8836x9x1 ![] bcast_S_S8836x9x1 main_cst_0
  let main_v6 : IVec S8836x9x1 1 := cmpf .olt main_v4 main_v5
  let main_c_1 : IVec S_ 1 := constantI S_ 1 1#1
  let main_v7 : IVec S_ 1 := (fun x v => Host.reduce IntOp.andi x v reducesTo_S8836x9x1_S_d0_1_2 h_S_) main_v6 main_c_1
  let main_v8 : IVec S_ 1 := andi main_v3 main_v7
  main_v8
-- ==== Kernel.lean ====
abbrev S32x96x96x128 : Shape := ⟨4, ![32, 96, 96, 128]⟩
abbrev S8836x9x1 : Shape := ⟨3, ![8836, 9, 1]⟩
abbrev S94x94x9 : Shape := ⟨3, ![94, 94, 9]⟩
abbrev S9x94x94 : Shape := ⟨3, ![9, 94, 94]⟩
abbrev S32x94x94x128 : Shape := ⟨4, ![32, 94, 94, 128]⟩
abbrev S2x96x96x128 : Shape := ⟨4, ![2, 96, 96, 128]⟩
abbrev S2x94x94x128 : Shape := ⟨4, ![2, 94, 94, 128]⟩
abbrev S1x94x94 : Shape := ⟨3, ![1, 94, 94]⟩
abbrev S94x94 : Shape := ⟨2, ![94, 94]⟩
abbrev S1x94x94x1 : Shape := ⟨4, ![1, 94, 94, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x96x96x128, .f32⟩
  | .hbm, ⟨1, _⟩ => ⟨S8836x9x1, .f32⟩
  | .hbm, ⟨2, _⟩ => ⟨S94x94x9, .f32⟩
  | .hbm, ⟨3, _⟩ => ⟨S9x94x94, .f32⟩
  | .hbm, ⟨4, _⟩ => ⟨S32x94x94x128, .f32⟩
  | .local _ .vmem, ⟨0, _⟩ => ⟨S2x96x96x128, .f32⟩
  | .local _ .vmem, ⟨1, _⟩ => ⟨S2x96x96x128, .f32⟩
  | .local _ .vmem, ⟨2, _⟩ => ⟨S9x94x94, .f32⟩
  | .local _ .vmem, ⟨3, _⟩ => ⟨S2x94x94x128, .f32⟩
  | .local _ .vmem, ⟨4, _⟩ => ⟨S2x94x94x128, .f32⟩
  | _, _ => ⟨S32x96x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x96x96x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x94x94 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x94x94x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8836x9x1_S94x94x9 : S8836x9x1.ShapeCasts S94x94x9
  transposes_S94x94x9_S9x94x94_2_0_1 : S94x94x9.Transposes [2, 0, 1] S9x94x94
  inb_S2x96x96x128_S2x96x96x128_0_0_0_0 : ∀ a, (![0, 0, 0, 0] : Fin 4 → Nat) a + S2x96x96x128.size a ≤ S2x96x96x128.size a
  h_S2x96x96x128 : 0 < S2x96x96x128.numel
  inb_S9x94x94_S9x94x94_0_0_0 : ∀ a, (![0, 0, 0] : Fin 3 → Nat) a + S9x94x94.size a ≤ S9x94x94.size a
  h_S9x94x94 : 0 < S9x94x94.numel
  shapeCasts_S9x94x94_S9x94x94 : S9x94x94.ShapeCasts S9x94x94
  slices_S2x96x96x128_o0_0_0_0_S2x94x94x128 : S2x96x96x128.Slices ![0, 0, 0, 0] S2x94x94x128
  slices_S9x94x94_o0_0_0_S1x94x94 : S9x94x94.Slices ![0, 0, 0] S1x94x94
  shapeCasts_S1x94x94_S94x94 : S1x94x94.ShapeCasts S94x94
  shapeCasts_S94x94_S1x94x94x1 : S94x94.ShapeCasts S1x94x94x1
  broadcasts_S1x94x94x1_S2x94x94x128 : S1x94x94x1.Broadcasts S2x94x94x128
  slices_S2x96x96x128_o0_0_1_0_S2x94x94x128 : S2x96x96x128.Slices ![0, 0, 1, 0] S2x94x94x128
  slices_S9x94x94_o1_0_0_S1x94x94 : S9x94x94.Slices ![1, 0, 0] S1x94x94
  slices_S2x96x96x128_o0_0_2_0_S2x94x94x128 : S2x96x96x128.Slices ![0, 0, 2, 0] S2x94x94x128
  slices_S9x94x94_o2_0_0_S1x94x94 : S9x94x94.Slices ![2, 0, 0] S1x94x94
  slices_S2x96x96x128_o0_1_0_0_S2x94x94x128 : S2x96x96x128.Slices ![0, 1, 0, 0] S2x94x94x128
  slices_S9x94x94_o3_0_0_S1x94x94 : S9x94x94.Slices ![3, 0, 0] S1x94x94
  slices_S2x96x96x128_o0_1_1_0_S2x94x94x128 : S2x96x96x128.Slices ![0, 1, 1, 0] S2x94x94x128
  slices_S9x94x94_o4_0_0_S1x94x94 : S9x94x94.Slices ![4, 0, 0] S1x94x94
  slices_S2x96x96x128_o0_1_2_0_S2x94x94x128 : S2x96x96x128.Slices ![0, 1, 2, 0] S2x94x94x128
  slices_S9x94x94_o5_0_0_S1x94x94 : S9x94x94.Slices ![5, 0, 0] S1x94x94
  slices_S2x96x96x128_o0_2_0_0_S2x94x94x128 : S2x96x96x128.Slices ![0, 2, 0, 0] S2x94x94x128
  slices_S9x94x94_o6_0_0_S1x94x94 : S9x94x94.Slices ![6, 0, 0] S1x94x94
  slices_S2x96x96x128_o0_2_1_0_S2x94x94x128 : S2x96x96x128.Slices ![0, 2, 1, 0] S2x94x94x128
  slices_S9x94x94_o7_0_0_S1x94x94 : S9x94x94.Slices ![7, 0, 0] S1x94x94
  slices_S2x96x96x128_o0_2_2_0_S2x94x94x128 : S2x96x96x128.Slices ![0, 2, 2, 0] S2x94x94x128
  slices_S9x94x94_o8_0_0_S1x94x94 : S9x94x94.Slices ![8, 0, 0] S1x94x94
  inb_S2x94x94x128_S2x94x94x128_0_0_0_0 : ∀ a, (![0, 0, 0, 0] : Fin 4 → Nat) a + S2x94x94x128.size a ≤ S2x94x94x128.size a
  h_S2x94x94x128 : 0 < S2x94x94x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x96x96x128.size a ≤ S32x96x96x128.size a
  hwx0_0 : ∀ i : grid0.Coords, EltTy.bits .f32 = 32 ∨ (Rect.block (s := S32x96x96x128) S2x96x96x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x94x94.size a ≤ S9x94x94.size a
  hwx0_1 : ∀ i : grid0.Coords, EltTy.bits .f32 = 32 ∨ (Rect.block (s := S9x94x94) S9x94x94.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x94x94x128.size a ≤ S32x94x94x128.size a
  hwx0_2 : ∀ i : grid0.Coords, EltTy.bits .f32 = 32 ∨ (Rect.block (s := S32x94x94x128) S2x94x94x128.size (cc0_transform_2 i) (hinb0_2 i)).WholeWords (EltTy.packing .f32)

variable [Facts₀]

abbrev win0_0 : Pipeline.Window sig grid0 :=
  Pipeline.Window.ofSpec (Memref.whole main_arg0) S2x96x96x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x94x94.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x94x94x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x96x96x128 : Shape := ⟨4, ![32, 96, 96, 128]⟩
abbrev S8836x9x1 : Shape := ⟨3, ![8836, 9, 1]⟩
abbrev S94x94x3x3 : Shape := ⟨4, ![94, 94, 3, 3]⟩
abbrev S_ : Shape := ⟨0, ![]⟩
abbrev S32x94x94x128 : Shape := ⟨4, ![32, 94, 94, 128]⟩
abbrev S94x94x1x1 : Shape := ⟨4, ![94, 94, 1, 1]⟩
abbrev S94x94 : Shape := ⟨2, ![94, 94]⟩
abbrev S1x94x94x1 : Shape := ⟨4, ![1, 94, 94, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x96x96x128, .f32⟩
  | .hbm, ⟨1, _⟩ => ⟨S8836x9x1, .f32⟩
  | .hbm, ⟨2, _⟩ => ⟨S94x94x3x3, .f32⟩
  | .hbm, ⟨3, _⟩ => ⟨S_, .f32⟩
  | .hbm, ⟨4, _⟩ => ⟨S32x94x94x128, .f32⟩
  | .hbm, ⟨5, _⟩ => ⟨S32x94x94x128, .f32⟩
  | .hbm, ⟨6, _⟩ => ⟨S94x94x1x1, .f32⟩
  | .hbm, ⟨7, _⟩ => ⟨S94x94, .f32⟩
  | .hbm, ⟨8, _⟩ => ⟨S1x94x94x1, .f32⟩
  | .hbm, ⟨9, _⟩ => ⟨S32x94x94x128, .f32⟩
  | .hbm, ⟨10, _⟩ => ⟨S32x94x94x128, .f32⟩
  | .hbm, ⟨11, _⟩ => ⟨S32x94x94x128, .f32⟩
  | .hbm, ⟨12, _⟩ => ⟨S32x94x94x128, .f32⟩
  | .hbm, ⟨13, _⟩ => ⟨S94x94x1x1, .f32⟩
  | .hbm, ⟨14, _⟩ => ⟨S94x94, .f32⟩
  | .hbm, ⟨15, _⟩ => ⟨S1x94x94x1, .f32⟩
  | .hbm, ⟨16, _⟩ => ⟨S32x94x94x128, .f32⟩
  | .hbm, ⟨17, _⟩ => ⟨S32x94x94x128, .f32⟩
  | .hbm, ⟨18, _⟩ => ⟨S32x94x94x128, .f32⟩
  | .hbm, ⟨19, _⟩ => ⟨S32x94x94x128, .f32⟩
  | .hbm, ⟨20, _⟩ => ⟨S94x94x1x1, .f32⟩
  | .hbm, ⟨21, _⟩ => ⟨S94x94, .f32⟩
  | .hbm, ⟨22, _⟩ => ⟨S1x94x94x1, .f32⟩
  | .hbm, ⟨23, _⟩ => ⟨S32x94x94x128, .f32⟩
  | .hbm, ⟨24, _⟩ => ⟨S32x94x94x128, .f32⟩
  | .hbm, ⟨25, _⟩ => ⟨S32x94x94x128, .f32⟩
  | .hbm, ⟨26, _⟩ => ⟨S32x94x94x128, .f32⟩
  | .hbm, ⟨27, _⟩ => ⟨S94x94x1x1, .f32⟩
  | .hbm, ⟨28, _⟩ => ⟨S94x94, .f32⟩
  | .hbm, ⟨29, _⟩ => ⟨S1x94x94x1, .f32⟩
  | .hbm, ⟨30, _⟩ => ⟨S32x94x94x128, .f32⟩
  | .hbm, ⟨31, _⟩ => ⟨S32x94x94x128, .f32⟩
  | .hbm, ⟨32, _⟩ => ⟨S32x94x94x128, .f32⟩
  | .hbm, ⟨33, _⟩ => ⟨S32x94x94x128, .f32⟩
  | .hbm, ⟨34, _⟩ => ⟨S94x94x1x1, .f32⟩
  | .hbm, ⟨35, _⟩ => ⟨S94x94, .f32⟩
  | .hbm, ⟨36, _⟩ => ⟨S1x94x94x1, .f32⟩
  | .hbm, ⟨37, _⟩ => ⟨S32x94x94x128, .f32⟩
  | .hbm, ⟨38, _⟩ => ⟨S32x94x94x128, .f32⟩
  | .hbm, ⟨39, _⟩ => ⟨S32x94x94x128, .f32⟩
  | .hbm, ⟨40, _⟩ => ⟨S32x94x94x128, .f32⟩
  | .hbm, ⟨41, _⟩ => ⟨S94x94x1x1, .f32⟩
  | .hbm, ⟨42, _⟩ => ⟨S94x94, .f32⟩
  | .hbm, ⟨43, _⟩ => ⟨S1x94x94x1, .f32⟩
  | .hbm, ⟨44, _⟩ => ⟨S32x94x94x128, .f32⟩
  | .hbm, ⟨45, _⟩ => ⟨S32x94x94x128, .f32⟩
  | .hbm, ⟨46, _⟩ => ⟨S32x94x94x128, .f32⟩
  | .hbm, ⟨47, _⟩ => ⟨S32x94x94x128, .f32⟩
  | .hbm, ⟨48, _⟩ => ⟨S94x94x1x1, .f32⟩
  | .hbm, ⟨49, _⟩ => ⟨S94x94, .f32⟩
  | .hbm, ⟨50, _⟩ => ⟨S1x94x94x1, .f32⟩
  | .hbm, ⟨51, _⟩ => ⟨S32x94x94x128, .f32⟩
  | .hbm, ⟨52, _⟩ => ⟨S32x94x94x128, .f32⟩
  | .hbm, ⟨53, _⟩ => ⟨S32x94x94x128, .f32⟩
  | .hbm, ⟨54, _⟩ => ⟨S32x94x94x128, .f32⟩
  | .hbm, ⟨55, _⟩ => ⟨S94x94x1x1, .f32⟩
  | .hbm, ⟨56, _⟩ => ⟨S94x94, .f32⟩
  | .hbm, ⟨57, _⟩ => ⟨S1x94x94x1, .f32⟩
  | .hbm, ⟨58, _⟩ => ⟨S32x94x94x128, .f32⟩
  | .hbm, ⟨59, _⟩ => ⟨S32x94x94x128, .f32⟩
  | .hbm, ⟨60, _⟩ => ⟨S32x94x94x128, .f32⟩
  | .hbm, ⟨61, _⟩ => ⟨S32x94x94x128, .f32⟩
  | .hbm, ⟨62, _⟩ => ⟨S94x94x1x1, .f32⟩
  | .hbm, ⟨63, _⟩ => ⟨S94x94, .f32⟩
  | .hbm, ⟨64, _⟩ => ⟨S1x94x94x1, .f32⟩
  | .hbm, ⟨65, _⟩ => ⟨S32x94x94x128, .f32⟩
  | .hbm, ⟨66, _⟩ => ⟨S32x94x94x128, .f32⟩
  | .hbm, ⟨67, _⟩ => ⟨S32x94x94x128, .f32⟩
  | _, _ => ⟨S32x96x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩

abbrev nD : Nat := 1
abbrev τ : Topo := Topo.v7x

variable {F : FTy → Type} [FloatOps F]

class Facts₀ : Prop where
  shapeCasts_S8836x9x1_S94x94x3x3 : S8836x9x1.ShapeCasts S94x94x3x3
  bcast_S_S32x94x94x128 : S_.BroadcastsInDim S32x94x94x128 (![] : Fin 0 → Fin S32x94x94x128.rank)
  slices_S32x96x96x128_S32x94x94x128_0_0_0_0 : S32x96x96x128.Slices ![0, 0, 0, 0] S32x94x94x128
  slices_S94x94x3x3_S94x94x1x1_0_0_0_0 : S94x94x3x3.Slices ![0, 0, 0, 0] S94x94x1x1
  shapeCasts_S94x94x1x1_S94x94 : S94x94x1x1.ShapeCasts S94x94
  bcast_S94x94_S1x94x94x1_1_2 : S94x94.BroadcastsInDim S1x94x94x1 (![1, 2] : Fin 2 → Fin S1x94x94x1.rank)
  bcast_S1x94x94x1_S32x94x94x128_0_1_2_3 : S1x94x94x1.BroadcastsInDim S32x94x94x128 (![0, 1, 2, 3] : Fin 4 → Fin S32x94x94x128.rank)
  slices_S32x96x96x128_S32x94x94x128_0_0_1_0 : S32x96x96x128.Slices ![0, 0, 1, 0] S32x94x94x128
  slices_S94x94x3x3_S94x94x1x1_0_0_0_1 : S94x94x3x3.Slices ![0, 0, 0, 1] S94x94x1x1
  slices_S32x96x96x128_S32x94x94x128_0_0_2_0 : S32x96x96x128.Slices ![0, 0, 2, 0] S32x94x94x128
  slices_S94x94x3x3_S94x94x1x1_0_0_0_2 : S94x94x3x3.Slices ![0, 0, 0, 2] S94x94x1x1
  slices_S32x96x96x128_S32x94x94x128_0_1_0_0 : S32x96x96x128.Slices ![0, 1, 0, 0] S32x94x94x128
  slices_S94x94x3x3_S94x94x1x1_0_0_1_0 : S94x94x3x3.Slices ![0, 0, 1, 0] S94x94x1x1
  slices_S32x96x96x128_S32x94x94x128_0_1_1_0 : S32x96x96x128.Slices ![0, 1, 1, 0] S32x94x94x128
  slices_S94x94x3x3_S94x94x1x1_0_0_1_1 : S94x94x3x3.Slices ![0, 0, 1, 1] S94x94x1x1
  slices_S32x96x96x128_S32x94x94x128_0_1_2_0 : S32x96x96x128.Slices ![0, 1, 2, 0] S32x94x94x128
  slices_S94x94x3x3_S94x94x1x1_0_0_1_2 : S94x94x3x3.Slices ![0, 0, 1, 2] S94x94x1x1
  slices_S32x96x96x128_S32x94x94x128_0_2_0_0 : S32x96x96x128.Slices ![0, 2, 0, 0] S32x94x94x128
  slices_S94x94x3x3_S94x94x1x1_0_0_2_0 : S94x94x3x3.Slices ![0, 0, 2, 0] S94x94x1x1
  slices_S32x96x96x128_S32x94x94x128_0_2_1_0 : S32x96x96x128.Slices ![0, 2, 1, 0] S32x94x94x128
  slices_S94x94x3x3_S94x94x1x1_0_0_2_1 : S94x94x3x3.Slices ![0, 0, 2, 1] S94x94x1x1
  slices_S32x96x96x128_S32x94x94x128_0_2_2_0 : S32x96x96x128.Slices ![0, 2, 2, 0] S32x94x94x128
  slices_S94x94x3x3_S94x94x1x1_0_0_2_2 : S94x94x3x3.Slices ![0, 0, 2, 2] S94x94x1x1

variable [Facts₀]

class Facts : Prop extends Facts₀ where

variable [Facts]
-- ==== Proof.FilterSpec.lean ====
/-
  The locally connected 3×3 filter, as one function of the argument arrays.

  At output position (b, i, j, c) the result is the sum over the nine window offsets (di, dj), taken in row-major order
  and accumulated from the left, of  x[b, i + di, j + dj, c] · w[3·di + dj, i, j] : every output position has its own
  nine weights, shared by all channels c and all images b. The weights are stored flat, one row of nine per output
  position: w[t, i, j] = k[94·i + j, t, 0].

  Nothing here depends on the float instance: the sum is nine products joined by eight additions in a fixed order, so no
  law of the arithmetic is used. The one law the certificate needs is stated at the end: on the extended reals the zero
  word is the number 0 and 0 + a = a for EVERY a, infinite or not.
-/
import Idealize.ShloMosaic.PureOps.Ideal
import Idealize.ShloMosaic.PureOps.Ideal.Laws
import Idealize.ShloMosaic.Lib.ValueIdx

noncomputable section

namespace Cert.LocalFilter

open Idealize.ShloMosaic

variable {F : FTy → Type} [FloatOps F]

/-- The image x : 32 images of 96 × 96 positions and 128 channels. -/
abbrev Img : Shape := ⟨4, ![32, 96, 96, 128]⟩
/-- The weights as given: one row of nine per output position, 94 · 94 rows. -/
abbrev Flat : Shape := ⟨3, ![8836, 9, 1]⟩
/-- The weights with the window offset in front. -/
abbrev Wts : Shape := ⟨3, ![9, 94, 94]⟩
/-- The result: the 94 × 94 positions at which the whole window fits. -/
abbrev Out : Shape := ⟨4, ![32, 94, 94, 128]⟩

/-- Nine terms indexed by the window offsets, added from the left in row-major order of (di, dj). -/
def sum9 (f : Fin 3 → Fin 3 → Elt F .f32) : Elt F .f32 :=
  FloatOps.addf (FloatOps.addf (FloatOps.addf (FloatOps.addf (FloatOps.addf (FloatOps.addf (FloatOps.addf (FloatOps.addf
    (f 0 0) (f 0 1)) (f 0 2)) (f 1 0)) (f 1 1)) (f 1 2)) (f 2 0)) (f 2 1)) (f 2 2)

/-- Where output position `i` reads the image at window offset (di, dj): (b, i + di, j + dj, c). -/
abbrev imgAt (i : Out.Idx) (di dj : Fin 3) : Img.Idx := fun a => match a with
  | ⟨0, _⟩ => ⟨(i 0).val, by have h : (i 0).val < 32 := (i 0).isLt; show (i 0).val < 32; omega⟩
  | ⟨1, _⟩ => ⟨(i 1).val + di.val, by have h : (i 1).val < 94 := (i 1).isLt; have := di.isLt; show (i 1).val + di.val < 96; omega⟩
  | ⟨2, _⟩ => ⟨(i 2).val + dj.val, by have h : (i 2).val < 94 := (i 2).isLt; have := dj.isLt; show (i 2).val + dj.val < 96; omega⟩
  | ⟨3, _⟩ => ⟨(i 3).val, by have h : (i 3).val < 128 := (i 3).isLt; show (i 3).val < 128; omega⟩

/-- Where output position `i` reads the offset-first weights at window offset (di, dj): (3·di + dj, i, j). -/
abbrev wAt (i : Out.Idx) (di dj : Fin 3) : Wts.Idx := fun a => match a with
  | ⟨0, _⟩ => ⟨3 * di.val + dj.val, by have := di.isLt; have := dj.isLt; show 3 * di.val + dj.val < 9; omega⟩
  | ⟨1, _⟩ => ⟨(i 1).val, by have h : (i 1).val < 94 := (i 1).isLt; show (i 1).val < 94; omega⟩
  | ⟨2, _⟩ => ⟨(i 2).val, by have h : (i 2).val < 94 := (i 2).isLt; show (i 2).val < 94; omega⟩

/-- The flat weights' index of the offset-first weight (t, i, j): row 94·i + j, column t. -/
abbrev flatOf (v : Wts.Idx) : Flat.Idx := fun a => match a with
  | ⟨0, _⟩ => ⟨(v 1).val * 94 + (v 2).val, by have h1 : (v 1).val < 94 := (v 1).isLt; have h2 : (v 2).val < 94 := (v 2).isLt; show (v 1).val * 94 + (v 2).val < 8836; omega⟩
  | ⟨1, _⟩ => ⟨(v 0).val, by have h : (v 0).val < 9 := (v 0).isLt; show (v 0).val < 9; omega⟩
  | ⟨2, _⟩ => ⟨0, Nat.one_pos⟩

/-- The filter over offset-first weights `w`: at each output position the nine products x · w, summed from the left. -/
def filterW (x : Img.Idx → Elt F .f32) (w : Wts.Idx → Elt F .f32) : Out.Idx → Elt F .f32 :=
  fun i => sum9 fun di dj => FloatOps.mulf (x (imgAt i di dj)) (w (wAt i di dj))

/-- THE SPECIFICATION: the filter over the weights as given, `w[t, i, j] = k[94·i + j, t, 0]`. -/
def filter (x : Img.Idx → Elt F .f32) (k : Flat.Idx → Elt F .f32) : Out.Idx → Elt F .f32 :=
  filterW x fun v => k (flatOf v)

/-- On the extended reals the all-zero word is the number 0, and adding it on the left changes nothing — at every
    extended real, the infinities included: this is all that separates a sum started from a zero array from a sum
    started from its first term. -/
theorem zero_word_add (a : Elt Ideal .f32) :
    FloatOps.addf (FloatOps.ofBits (F := Ideal) .f32 0x00000000#32) a = a := by
  show Ideal.ofBits .f32 0x00000000#32 + a = a
  rw [Ideal.ofBits_zero_f32, zero_add]

end Cert.LocalFilter

end
-- ==== Proof.KernelBlock.lean ====
/-
  One grid step of the kernel computes two images' worth of the filter.

  Step q loads images 2q and 2q + 1 whole (a [2, 96, 96, 128] block) and all the offset-first weights ([9, 94, 94], the
  same block at every step), forms for each window offset (di, dj) the product of the block shifted by (di, dj) with
  weight table 3·di + dj broadcast over images and channels, adds the nine products from the left, and stores the
  [2, 94, 94, 128] result as images 2q, 2q + 1 of the output. The generated value leg has already read that body at an
  index of the block: entry (p, i, j, c) is the left-nested sum of  P0(p, i + di, j + dj, c) · P1(3·di + dj, i, j).
  Here that is restated on the arrays: with P0 image block q of x, the entry is the specification's `filterW x w` at
  (2q + p, i, j, c), because the block's image p IS image 2q + p and the shifts and weight tables are the same.
-/
import proofs.«177646_j14370960573268_2_alg».proof.Proof.ValuePatched
import proofs.«177646_j14370960573268_2_alg».proof.Proof.FilterSpec

noncomputable section

namespace Cert.KernelIdeal.Block

open Cert.KernelIdeal Cert.KernelIdeal.Gen Cert.KernelIdeal.ValueP Cert.LocalFilter Idealize.ShloMosaic

variable {F : FTy → Type} [FloatOps F]

/-- Two indices are equal when their coordinates are equal as numbers (rank 4, rank 3). -/
local macro "coords4" : tactic =>
  `(tactic| (funext a; apply Fin.ext; match a with
      | ⟨0, _⟩ => first | rfl | (dsimp only []; omega)
      | ⟨1, _⟩ => first | rfl | (dsimp only []; omega)
      | ⟨2, _⟩ => first | rfl | (dsimp only []; omega)
      | ⟨3, _⟩ => first | rfl | (dsimp only []; omega)))
local macro "coords3" : tactic =>
  `(tactic| (funext a; apply Fin.ext; match a with
      | ⟨0, _⟩ => first | rfl | (dsimp only []; omega)
      | ⟨1, _⟩ => first | rfl | (dsimp only []; omega)
      | ⟨2, _⟩ => first | rfl | (dsimp only []; omega)))

/-! ## The body over whole blocks -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The body loads both blocks whole and stores its one result over the whole output block, so what it leaves there is
    the generated entry-by-entry function `E2` of the two loaded blocks. -/
theorem out_eq (P0 : Vec F S2x96x96x128 .f32) (P1 : Vec F S9x94x94 .f32) : out0_2 P0 P1 = E2 P0 P1 := by
  unfold out0_2
  simp only [View.ld_unit_zero (S := S2x96x96x128) zeros4, View.ld_unit_zero (S := S9x94x94) zeros3]
  funext y
  exact canon2_eq P0 P1 y

/-! ## Blocks inside the arrays -/

/-- Entry `u` of image block `q`, as an index of the whole image: image 2q + p. -/
abbrev imgUp (q : Fin 16) (u : S2x96x96x128.Idx) : Img.Idx := fun a => match a with
  | ⟨0, _⟩ => ⟨q.val * 2 + (u 0).val, by have h : (u 0).val < 2 := (u 0).isLt; have := q.isLt; show q.val * 2 + (u 0).val < 32; omega⟩
  | ⟨1, _⟩ => ⟨(u 1).val, by have h : (u 1).val < 96 := (u 1).isLt; show (u 1).val < 96; omega⟩
  | ⟨2, _⟩ => ⟨(u 2).val, by have h : (u 2).val < 96 := (u 2).isLt; show (u 2).val < 96; omega⟩
  | ⟨3, _⟩ => ⟨(u 3).val, by have h : (u 3).val < 128 := (u 3).isLt; show (u 3).val < 128; omega⟩

/-- Entry `j` of output block `q`, as an index of the whole output: image 2q + p. -/
abbrev outUp (q : Fin 16) (j : S2x94x94x128.Idx) : Out.Idx := fun a => match a with
  | ⟨0, _⟩ => ⟨q.val * 2 + (j 0).val, by have h : (j 0).val < 2 := (j 0).isLt; have := q.isLt; show q.val * 2 + (j 0).val < 32; omega⟩
  | ⟨1, _⟩ => ⟨(j 1).val, by have h : (j 1).val < 94 := (j 1).isLt; show (j 1).val < 94; omega⟩
  | ⟨2, _⟩ => ⟨(j 2).val, by have h : (j 2).val < 94 := (j 2).isLt; show (j 2).val < 94; omega⟩
  | ⟨3, _⟩ => ⟨(j 3).val, by have h : (j 3).val < 128 := (j 3).isLt; show (j 3).val < 128; omega⟩

/-! ## The shifted reads of the block are the specification's reads of the array

For each window offset: entry (p, i + di, j + dj, c) of image block q is the image at (2q + p, i + di, j + dj, c), which
is where the specification reads x for output position (2q + p, i, j, c); and the weight read, (3·di + dj, i, j), does
not involve the block at all. -/

theorem img_0_0 (q : Fin 16) (j : S2x94x94x128.Idx) : imgUp q (ix2_0 j) = imgAt (outUp q j) 0 0 := by
  have h1 : (j 1).val < 94 := (j 1).isLt
  have h2 : (j 2).val < 94 := (j 2).isLt
  coords4
theorem wt_0_0 (q : Fin 16) (j : S2x94x94x128.Idx) : ix2_1 j = wAt (outUp q j) 0 0 := by
  coords3
theorem img_0_1 (q : Fin 16) (j : S2x94x94x128.Idx) : imgUp q (ix2_2 j) = imgAt (outUp q j) 0 1 := by
  have h1 : (j 1).val < 94 := (j 1).isLt
  have h2 : (j 2).val < 94 := (j 2).isLt
  coords4
theorem wt_0_1 (q : Fin 16) (j : S2x94x94x128.Idx) : ix2_3 j = wAt (outUp q j) 0 1 := by
  coords3
theorem img_0_2 (q : Fin 16) (j : S2x94x94x128.Idx) : imgUp q (ix2_4 j) = imgAt (outUp q j) 0 2 := by
  have h1 : (j 1).val < 94 := (j 1).isLt
  have h2 : (j 2).val < 94 := (j 2).isLt
  coords4
theorem wt_0_2 (q : Fin 16) (j : S2x94x94x128.Idx) : ix2_5 j = wAt (outUp q j) 0 2 := by
  coords3
theorem img_1_0 (q : Fin 16) (j : S2x94x94x128.Idx) : imgUp q (ix2_6 j) = imgAt (outUp q j) 1 0 := by
  have h1 : (j 1).val < 94 := (j 1).isLt
  have h2 : (j 2).val < 94 := (j 2).isLt
  coords4
theorem wt_1_0 (q : Fin 16) (j : S2x94x94x128.Idx) : ix2_7 j = wAt (outUp q j) 1 0 := by
  coords3
theorem img_1_1 (q : Fin 16) (j : S2x94x94x128.Idx) : imgUp q (ix2_8 j) = imgAt (outUp q j) 1 1 := by
  have h1 : (j 1).val < 94 := (j 1).isLt
  have h2 : (j 2).val < 94 := (j 2).isLt
  coords4
theorem wt_1_1 (q : Fin 16) (j : S2x94x94x128.Idx) : ix2_9 j = wAt (outUp q j) 1 1 := by
  coords3
theorem img_1_2 (q : Fin 16) (j : S2x94x94x128.Idx) : imgUp q (ix2_10 j) = imgAt (outUp q j) 1 2 := by
  have h1 : (j 1).val < 94 := (j 1).isLt
  have h2 : (j 2).val < 94 := (j 2).isLt
  coords4
theorem wt_1_2 (q : Fin 16) (j : S2x94x94x128.Idx) : ix2_11 j = wAt (outUp q j) 1 2 := by
  coords3
theorem img_2_0 (q : Fin 16) (j : S2x94x94x128.Idx) : imgUp q (ix2_12 j) = imgAt (outUp q j) 2 0 := by
  have h1 : (j 1).val < 94 := (j 1).isLt
  have h2 : (j 2).val < 94 := (j 2).isLt
  coords4
theorem wt_2_0 (q : Fin 16) (j : S2x94x94x128.Idx) : ix2_13 j = wAt (outUp q j) 2 0 := by
  coords3
theorem img_2_1 (q : Fin 16) (j : S2x94x94x128.Idx) : imgUp q (ix2_14 j) = imgAt (outUp q j) 2 1 := by
  have h1 : (j 1).val < 94 := (j 1).isLt
  have h2 : (j 2).val < 94 := (j 2).isLt
  coords4
theorem wt_2_1 (q : Fin 16) (j : S2x94x94x128.Idx) : ix2_15 j = wAt (outUp q j) 2 1 := by
  coords3
theorem img_2_2 (q : Fin 16) (j : S2x94x94x128.Idx) : imgUp q (ix2_16 j) = imgAt (outUp q j) 2 2 := by
  have h1 : (j 1).val < 94 := (j 1).isLt
  have h2 : (j 2).val < 94 := (j 2).isLt
  coords4
theorem wt_2_2 (q : Fin 16) (j : S2x94x94x128.Idx) : ix2_17 j = wAt (outUp q j) 2 2 := by
  coords3

/-- ONE STEP IS THE FILTER ON ITS TWO IMAGES: with image block q of `X` and the weights `W` loaded, entry `j` of what the
    body stores is the specification's filter of the whole arrays at the output index of that entry. -/
theorem block_eq (X : Img.Idx → Elt F .f32) (W : Wts.Idx → Elt F .f32) (q : Fin 16) (j : S2x94x94x128.Idx) :
    E2 (fun u => X (imgUp q u)) W j = filterW X W (outUp q j) := by
  dsimp only [E2]
  rw [img_0_0 q j, img_0_1 q j, img_0_2 q j, img_1_0 q j, img_1_1 q j, img_1_2 q j, img_2_0 q j, img_2_1 q j, img_2_2 q j,
    wt_0_0 q j, wt_0_1 q j, wt_0_2 q j, wt_1_0 q j, wt_1_1 q j, wt_1_2 q j, wt_2_0 q j, wt_2_1 q j, wt_2_2 q j]
  rfl

end Cert.KernelIdeal.Block

end
-- ==== Proof.KernelWeights.lean ====
/-
  The weights the kernel is launched with.

  Before the one kernel launch the program reshapes the flat weights [8836, 9, 1] to [94, 94, 9] and moves the last
  axis to the front, [9, 94, 94]: the array the kernel's second operand stages is that transpose. Read at (t, i, j):
  the transpose takes it from (i, j, t) of the [94, 94, 9] view, whose row-major position (94·i + j)·9 + t is
  row 94·i + j, column t of the flat table. So it is the specification's offset-first view of the weights.
-/
import proofs.«177646_j14370960573268_2_alg».proof.Proof.Gen.KernelIdeal.Frame
import proofs.«177646_j14370960573268_2_alg».proof.Proof.FilterSpec
import Idealize.ShloMosaic.Lib.StableHlo.Run
import Idealize.ShloMosaic.Lib.Pipeline.Value

noncomputable section

namespace Cert.KernelIdeal.Weights

open Cert.KernelIdeal Cert.KernelIdeal.Gen Cert.LocalFilter Idealize.ShloMosaic Idealize.ShloMosaic.TcCoe Idealize.SL.Sem

variable {F : FTy → Type} [FloatOps F]
variable (m : (ℓ : Loc nD τ sig) → Buf (Elt F) ℓ)

/-- When the kernel is launched, the staged weight array holds the transpose of the reshape of the flat weights. -/
theorem staged_eq (c : Dev nD) :
    (V m c main_v1 : S9x94x94.Idx → Elt F .f32)
      = transpose S9x94x94 [2, 0, 1] (shapeCast S94x94x9 (m ((c : Thread nD τ).loc main_arg1)) shapeCasts_S8836x9x1_S94x94x9)
          transposes_S94x94x9_S9x94x94_2_0_1 := by
  dsimp only [Gen.V, Gen.hostOps0]; after_results; rfl

/-- Where the transpose reads the [94, 94, 9] view: (t, i, j) comes from (i, j, t). -/
abbrev untransposed (v : S9x94x94.Idx) : S94x94x9.Idx := fun a => match a with
  | ⟨0, _⟩ => ⟨(v 1).val, by have h : (v 1).val < 94 := (v 1).isLt; show (v 1).val < 94; omega⟩
  | ⟨1, _⟩ => ⟨(v 2).val, by have h : (v 2).val < 94 := (v 2).isLt; show (v 2).val < 94; omega⟩
  | ⟨2, _⟩ => ⟨(v 0).val, by have h : (v 0).val < 9 := (v 0).isLt; show (v 0).val < 9; omega⟩

/-- THE STAGED WEIGHTS ARE THE OFFSET-FIRST VIEW: entry (t, i, j) is the flat weights' entry (94·i + j, t, 0). -/
theorem staged_apply (c : Dev nD) (v : S9x94x94.Idx) :
    V m c main_v1 v = m ((c : Thread nD τ).loc main_arg1) (flatOf v) := by
  have h0 : (v 0).val < 9 := (v 0).isLt
  have h1 : (v 1).val < 94 := (v 1).isLt
  have h2 : (v 2).val < 94 := (v 2).isLt
  refine (congrFun (staged_eq m c) v).trans ?_
  refine (transpose_apply [2, 0, 1] _ transposes_S94x94x9_S9x94x94_2_0_1 v (untransposed v)
    (fun b => match b with | ⟨0, _⟩ => rfl | ⟨1, _⟩ => rfl | ⟨2, _⟩ => rfl)).trans ?_
  refine shapeCast_apply _ shapeCasts_S8836x9x1_S94x94x9 (untransposed v) (flatOf v) ?_
  rw [Shape.rowMajor_val_three, Shape.rowMajor_val_three]
  show (((v 1).val * 94 + (v 2).val) * 9 + (v 0).val) * 1 + 0 = ((v 1).val * 94 + (v 2).val) * 9 + (v 0).val
  omega

end Cert.KernelIdeal.Weights

end
-- ==== Proof.KernelWhole.lean ====
/-
  From grid steps to the whole output array.

  The grid has 16 steps; step q stages image block q of x (images 2q, 2q + 1), the whole weight array, and writes back
  output block q. By KernelBlock.lean what step q writes back is the filter of the arrays as the kernel finds them, read
  through output block q. The 16 output blocks tile the 32 images — image b lies in block b / 2 — so after the last step
  the output array is the filter of x and of the staged weights everywhere; x is as launched, and the staged weights are
  the offset-first view of the flat weights (KernelWeights.lean): the output is the specification.
-/
import proofs.«177646_j14370960573268_2_alg».proof.Proof.KernelBlock
import proofs.«177646_j14370960573268_2_alg».proof.Proof.KernelWeights

noncomputable section

namespace Cert.KernelIdeal.Whole

open Cert.KernelIdeal Cert.KernelIdeal.Gen Cert.KernelIdeal.ValueP Cert.KernelIdeal.Block Cert.KernelIdeal.Weights
open Cert.LocalFilter Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Which blocks a step touches -/

/-- A grid point as a step number below 16. -/
def step (t : Fin cfg0.N) : Fin 16 := ⟨t.val, by have h : t.val < grid0.N := t.isLt; rw [N_0] at h; exact h⟩

/-- The printed index maps, decided over the 16 grid points: at step t the image window and the output window are at
    block t along the image axis and at block 0 along every other axis; the weight window never moves. -/
theorem index_maps : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- Entry `u` of the image window's block at step t is entry `u` of image block t: a block's coordinate is its block index
    times the block's extent plus the coordinate inside the block. -/
theorem emb_img (t : Fin cfg0.N) (u : S2x96x96x128.Idx) : ((cfg0.win 0).blk t).view.emb u = imgUp (step t) u := by
  obtain ⟨a0, a1, a2, a3, -⟩ := index_maps t
  have h0 : (u 0).val < 2 := (u 0).isLt
  funext a; apply Fin.ext
  match a with
  | ⟨0, _⟩ => show win0_0.index t (0 : Fin 4) * 2 + 1 * (u 0).val = t.val * 2 + (u 0).val; omega
  | ⟨1, _⟩ => show win0_0.index t (1 : Fin 4) * 96 + 1 * (u 1).val = (u 1).val; omega
  | ⟨2, _⟩ => show win0_0.index t (2 : Fin 4) * 96 + 1 * (u 2).val = (u 2).val; omega
  | ⟨3, _⟩ => show win0_0.index t (3 : Fin 4) * 128 + 1 * (u 3).val = (u 3).val; omega

/-- The weight window's one block is the whole weight array. -/
theorem emb_wts (t : Fin cfg0.N) (v : S9x94x94.Idx) : ((cfg0.win 1).blk t).view.emb v = v := by
  obtain ⟨-, -, -, -, b0, b1, b2, -⟩ := index_maps t
  funext a; apply Fin.ext
  match a with
  | ⟨0, _⟩ => show win0_1.index t (0 : Fin 3) * 9 + 1 * (v 0).val = (v 0).val; omega
  | ⟨1, _⟩ => show win0_1.index t (1 : Fin 3) * 94 + 1 * (v 1).val = (v 1).val; omega
  | ⟨2, _⟩ => show win0_1.index t (2 : Fin 3) * 94 + 1 * (v 2).val = (v 2).val; omega

/-- Entry `j` of the output window's block at step t is entry `j` of output block t. -/
theorem emb_out (t : Fin cfg0.N) (j : S2x94x94x128.Idx) : ((cfg0.win 2).blk t).view.emb j = outUp (step t) j := by
  obtain ⟨-, -, -, -, -, -, -, c0, c1, c2, c3⟩ := index_maps t
  funext a; apply Fin.ext
  match a with
  | ⟨0, _⟩ => show win0_2.index t (0 : Fin 4) * 2 + 1 * (j 0).val = t.val * 2 + (j 0).val; omega
  | ⟨1, _⟩ => show win0_2.index t (1 : Fin 4) * 94 + 1 * (j 1).val = (j 1).val; omega
  | ⟨2, _⟩ => show win0_2.index t (2 : Fin 4) * 94 + 1 * (j 2).val = (j 2).val; omega
  | ⟨3, _⟩ => show win0_2.index t (3 : Fin 4) * 128 + 1 * (j 3).val = (j 3).val; omega

/-! ## What a step writes back -/

/-- WHAT STEP t WRITES BACK is block t of the filter of the arrays as the kernel finds them: the body's result over the
    two staged blocks (`out_eq`), the staged blocks being image block t and the whole weights, is the filter at the output
    index of each entry (`block_eq`). -/
theorem flushed_eq (c : Dev nD) (t : Fin cfg0.N) :
    (dats m 0 c).flushed 2 t = ((cfg0.win 2).blk t).view.read (Elt F) (filterW (V m c main_arg0) (V m c main_v1)) := by
  rw [flushed2 m c t]
  funext j
  show out0_2 (iblk m c 0 t) (iblk m c 1 t) j = filterW (V m c main_arg0) (V m c main_v1) (((cfg0.win 2).blk t).view.emb j)
  rw [emb_out t j]
  refine (congrFun (out_eq (iblk m c 0 t) (iblk m c 1 t)) j).trans ?_
  have e0 : iblk m c 0 t = fun u : S2x96x96x128.Idx => V m c main_arg0 (imgUp (step t) u) :=
    funext fun u => congrArg (V m c main_arg0) (emb_img t u)
  have e1 : iblk m c 1 t = V m c main_v1 := funext fun v => congrArg (V m c main_v1) (emb_wts t v)
  rw [e0, e1]
  exact block_eq (V m c main_arg0) (V m c main_v1) (step t) j

/-! ## The blocks tile the output -/

/-- An index of the output is in step t's block iff each coordinate is in the block's range on its axis. -/
theorem mem_blk (t : Fin cfg0.N) (i : S32x94x94x128.Idx) :
    i ∈ ((cfg0.win 2).blk t).view.set ↔ ∀ a : Fin 4, win0_2.index t a * S2x94x94x128.size a ≤ (i a).val ∧ (i a).val < win0_2.index t a * S2x94x94x128.size a + S2x94x94x128.size a := by
  show i ∈ ((View.whole main_v2).slice (win0_2.rect t)).set ↔ _
  rw [View.set_slice_whole, Rect.mem_set_unit]
  exact Iff.rfl

/-- Every output index is in some step's block: image b is in block b / 2, and every step writes its block back. -/
theorem cover (i : S32x94x94x128.Idx) : ∃ t : Fin cfg0.N, (cfg0.win 2).flush t = true ∧ i ∈ ((cfg0.win 2).blk t).view.set := by
  have h0 : (i 0).val < 32 := (i 0).isLt
  have h1 : (i 1).val < 94 := (i 1).isLt
  have h2 : (i 2).val < 94 := (i 2).isLt
  have h3 : (i 3).val < 128 := (i 3).isLt
  have hN : (i 0).val / 2 < grid0.N := by rw [N_0]; omega
  obtain ⟨-, -, -, -, -, -, -, c0, c1, c2, c3⟩ := index_maps ⟨(i 0).val / 2, hN⟩
  have c0' : win0_2.index ⟨(i 0).val / 2, hN⟩ (0 : Fin 4) = (i 0).val / 2 := c0
  refine ⟨⟨(i 0).val / 2, hN⟩, flush0_2 _, ?_⟩
  rw [mem_blk]
  intro a
  match a with
  | ⟨0, _⟩ => show win0_2.index ⟨(i 0).val / 2, hN⟩ (0 : Fin 4) * 2 ≤ (i 0).val ∧ (i 0).val < win0_2.index ⟨(i 0).val / 2, hN⟩ (0 : Fin 4) * 2 + 2; omega
  | ⟨1, _⟩ => show win0_2.index ⟨(i 0).val / 2, hN⟩ (1 : Fin 4) * 94 ≤ (i 1).val ∧ (i 1).val < win0_2.index ⟨(i 0).val / 2, hN⟩ (1 : Fin 4) * 94 + 94; omega
  | ⟨2, _⟩ => show win0_2.index ⟨(i 0).val / 2, hN⟩ (2 : Fin 4) * 94 ≤ (i 2).val ∧ (i 2).val < win0_2.index ⟨(i 0).val / 2, hN⟩ (2 : Fin 4) * 94 + 94; omega
  | ⟨3, _⟩ => show win0_2.index ⟨(i 0).val / 2, hN⟩ (3 : Fin 4) * 128 ≤ (i 3).val ∧ (i 3).val < win0_2.index ⟨(i 0).val / 2, hN⟩ (3 : Fin 4) * 128 + 128; omega

/-! ## The output array, and the run -/

/-- THE OUTPUT after the last step is the specification's filter of the argument arrays as launched. -/
theorem final (c : Dev nD) :
    (dats m 0 c).arrAt 2 cfg0.N = filter (m ((c : Thread nD τ).loc main_arg0)) (m ((c : Thread nD τ).loc main_arg1)) := by
  rw [(dats m 0 c).arrAt_eq_of_cover 2 (filterW (V m c main_arg0) (V m c main_v1)) (fun t _ => flushed_eq m c t) cover]
  have e1 : (V m c main_v1 : S9x94x94.Idx → Elt F .f32) = fun v => m ((c : Thread nD τ).loc main_arg1) (flatOf v) :=
    funext (staged_apply m c)
  rw [V_main_arg0 m c, e1]
  rfl

/-- Every weakly fair execution of the kernel's program terminates with the output at the filter of the arguments and
    the arguments unchanged. -/
theorem run : θ_run defs (onTc (τ := τ) (main (F := F))) ⟨m, fun _ => 0, ρ⟩ fun r => ∀ c : Dev nD,
      r.2.mem ((c : Thread nD τ).loc main_v2) = filter (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefFilter.lean ====
/-
  The reference computes the filter of FilterSpec.lean.

  The reference starts from an array of zeros and adds, for each window offset (di, dj) in row-major order, the product
  of the image shifted by (di, dj) with the weights of that offset: it slices x[:, di:di+94, dj:dj+94, :], slices
  offset (di, dj) out of the weights reshaped to [94, 94, 3, 3], drops the two unit axes, and broadcasts the resulting
  [94, 94] table over images and channels. Read at one output position (b, i, j, c), each of these steps only moves an
  index, so the term is  ((0 + x·k) + x·k) + … — nine products whose factors sit at

      x at (b, i + di, j + dj, c)            and            k at (94·i + j, 3·di + dj, 0):

  row-major position ((94·i + j)·3 + di)·3 + dj of the [94, 94, 3, 3] view is row 94·i + j, column 3·di + dj of the
  [8836, 9] table, since di, dj < 3. The leading zero disappears on the extended reals (`zero_word_add`) and what is left
  is the specification's left-nested sum, term for term.
-/
import proofs.«177646_j14370960573268_2_alg».proof.Proof.Gen.ReferenceIdeal.Read
import proofs.«177646_j14370960573268_2_alg».proof.Proof.FilterSpec

noncomputable section

namespace Cert.ReferenceIdeal.RefValue

open Cert.ReferenceIdeal Cert.ReferenceIdeal.Read Cert.LocalFilter Idealize.ShloMosaic

/-- Two rank-4 indices are equal when their coordinates are equal as numbers. -/
local macro "coords4" : tactic =>
  `(tactic| (funext a; apply Fin.ext; match a with
      | ⟨0, _⟩ => first | rfl | (dsimp only []; omega)
      | ⟨1, _⟩ => first | rfl | (dsimp only []; omega)
      | ⟨2, _⟩ => first | rfl | (dsimp only []; omega)
      | ⟨3, _⟩ => first | rfl | (dsimp only []; omega)))
/-- The same for rank 3. -/
local macro "coords3" : tactic =>
  `(tactic| (funext a; apply Fin.ext; match a with
      | ⟨0, _⟩ => first | rfl | (dsimp only []; omega)
      | ⟨1, _⟩ => first | rfl | (dsimp only []; omega)
      | ⟨2, _⟩ => first | rfl | (dsimp only []; omega)))

/-! ## Where each shifted slice reads the image -/

/-- The slice shifted by (0, 0) reads the image at (b, i + 0, j + 0, c). -/
theorem img_0_0 (i : S32x94x94x128.Idx) : idx_main_v2 i = imgAt i 0 0 := by
  have h1 : (i 1).val < 94 := (i 1).isLt
  have h2 : (i 2).val < 94 := (i 2).isLt
  coords4
/-- The slice shifted by (0, 1) reads the image at (b, i + 0, j + 1, c). -/
theorem img_0_1 (i : S32x94x94x128.Idx) : idx_main_v9 i = imgAt i 0 1 := by
  have h1 : (i 1).val < 94 := (i 1).isLt
  have h2 : (i 2).val < 94 := (i 2).isLt
  coords4
/-- The slice shifted by (0, 2) reads the image at (b, i + 0, j + 2, c). -/
theorem img_0_2 (i : S32x94x94x128.Idx) : idx_main_v16 i = imgAt i 0 2 := by
  have h1 : (i 1).val < 94 := (i 1).isLt
  have h2 : (i 2).val < 94 := (i 2).isLt
  coords4
/-- The slice shifted by (1, 0) reads the image at (b, i + 1, j + 0, c). -/
theorem img_1_0 (i : S32x94x94x128.Idx) : idx_main_v23 i = imgAt i 1 0 := by
  have h1 : (i 1).val < 94 := (i 1).isLt
  have h2 : (i 2).val < 94 := (i 2).isLt
  coords4
/-- The slice shifted by (1, 1) reads the image at (b, i + 1, j + 1, c). -/
theorem img_1_1 (i : S32x94x94x128.Idx) : idx_main_v30 i = imgAt i 1 1 := by
  have h1 : (i 1).val < 94 := (i 1).isLt
  have h2 : (i 2).val < 94 := (i 2).isLt
  coords4
/-- The slice shifted by (1, 2) reads the image at (b, i + 1, j + 2, c). -/
theorem img_1_2 (i : S32x94x94x128.Idx) : idx_main_v37 i = imgAt i 1 2 := by
  have h1 : (i 1).val < 94 := (i 1).isLt
  have h2 : (i 2).val < 94 := (i 2).isLt
  coords4
/-- The slice shifted by (2, 0) reads the image at (b, i + 2, j + 0, c). -/
theorem img_2_0 (i : S32x94x94x128.Idx) : idx_main_v44 i = imgAt i 2 0 := by
  have h1 : (i 1).val < 94 := (i 1).isLt
  have h2 : (i 2).val < 94 := (i 2).isLt
  coords4
/-- The slice shifted by (2, 1) reads the image at (b, i + 2, j + 1, c). -/
theorem img_2_1 (i : S32x94x94x128.Idx) : idx_main_v51 i = imgAt i 2 1 := by
  have h1 : (i 1).val < 94 := (i 1).isLt
  have h2 : (i 2).val < 94 := (i 2).isLt
  coords4
/-- The slice shifted by (2, 2) reads the image at (b, i + 2, j + 2, c). -/
theorem img_2_2 (i : S32x94x94x128.Idx) : idx_main_v58 i = imgAt i 2 2 := by
  have h1 : (i 1).val < 94 := (i 1).isLt
  have h2 : (i 2).val < 94 := (i 2).isLt
  coords4

/-! ## Where each offset's broadcast table reads the flat weights

Broadcast over images and channels, then over the two unit axes, then the reshape [94, 94, 1, 1] → [94, 94], the slice of
offset (di, dj), and the reshape [8836, 9, 1] → [94, 94, 3, 3]: five index maps whose composite sends (b, i, j, c) to
row 94·i + j, column 3·di + dj. -/

/-- Offset (0, 0): the weight used at (b, i, j, c) is k[94·i + j, 0, 0]. -/
theorem wt_0_0 (i : S32x94x94x128.Idx) :
    idx_main_v0 (idx_main_v3 (idx_main_v4 (idx_main_v5 (idx_main_v6 i)))) = flatOf (wAt i 0 0) := by
  have h1 : (i 1).val < 94 := (i 1).isLt
  have h2 : (i 2).val < 94 := (i 2).isLt
  coords3
/-- Offset (0, 1): the weight used at (b, i, j, c) is k[94·i + j, 1, 0]. -/
theorem wt_0_1 (i : S32x94x94x128.Idx) :
    idx_main_v0 (idx_main_v10 (idx_main_v11 (idx_main_v12 (idx_main_v13 i)))) = flatOf (wAt i 0 1) := by
  have h1 : (i 1).val < 94 := (i 1).isLt
  have h2 : (i 2).val < 94 := (i 2).isLt
  coords3
/-- Offset (0, 2): the weight used at (b, i, j, c) is k[94·i + j, 2, 0]. -/
theorem wt_0_2 (i : S32x94x94x128.Idx) :
    idx_main_v0 (idx_main_v17 (idx_main_v18 (idx_main_v19 (idx_main_v20 i)))) = flatOf (wAt i 0 2) := by
  have h1 : (i 1).val < 94 := (i 1).isLt
  have h2 : (i 2).val < 94 := (i 2).isLt
  coords3
/-- Offset (1, 0): the weight used at (b, i, j, c) is k[94·i + j, 3, 0]. -/
theorem wt_1_0 (i : S32x94x94x128.Idx) :
    idx_main_v0 (idx_main_v24 (idx_main_v25 (idx_main_v26 (idx_main_v27 i)))) = flatOf (wAt i 1 0) := by
  have h1 : (i 1).val < 94 := (i 1).isLt
  have h2 : (i 2).val < 94 := (i 2).isLt
  coords3
/-- Offset (1, 1): the weight used at (b, i, j, c) is k[94·i + j, 4, 0]. -/
theorem wt_1_1 (i : S32x94x94x128.Idx) :
    idx_main_v0 (idx_main_v31 (idx_main_v32 (idx_main_v33 (idx_main_v34 i)))) = flatOf (wAt i 1 1) := by
  have h1 : (i 1).val < 94 := (i 1).isLt
  have h2 : (i 2).val < 94 := (i 2).isLt
  coords3
/-- Offset (1, 2): the weight used at (b, i, j, c) is k[94·i + j, 5, 0]. -/
theorem wt_1_2 (i : S32x94x94x128.Idx) :
    idx_main_v0 (idx_main_v38 (idx_main_v39 (idx_main_v40 (idx_main_v41 i)))) = flatOf (wAt i 1 2) := by
  have h1 : (i 1).val < 94 := (i 1).isLt
  have h2 : (i 2).val < 94 := (i 2).isLt
  coords3
/-- Offset (2, 0): the weight used at (b, i, j, c) is k[94·i + j, 6, 0]. -/
theorem wt_2_0 (i : S32x94x94x128.Idx) :
    idx_main_v0 (idx_main_v45 (idx_main_v46 (idx_main_v47 (idx_main_v48 i)))) = flatOf (wAt i 2 0) := by
  have h1 : (i 1).val < 94 := (i 1).isLt
  have h2 : (i 2).val < 94 := (i 2).isLt
  coords3
/-- Offset (2, 1): the weight used at (b, i, j, c) is k[94·i + j, 7, 0]. -/
theorem wt_2_1 (i : S32x94x94x128.Idx) :
    idx_main_v0 (idx_main_v52 (idx_main_v53 (idx_main_v54 (idx_main_v55 i)))) = flatOf (wAt i 2 1) := by
  have h1 : (i 1).val < 94 := (i 1).isLt
  have h2 : (i 2).val < 94 := (i 2).isLt
  coords3
/-- Offset (2, 2): the weight used at (b, i, j, c) is k[94·i + j, 8, 0]. -/
theorem wt_2_2 (i : S32x94x94x128.Idx) :
    idx_main_v0 (idx_main_v59 (idx_main_v60 (idx_main_v61 (idx_main_v62 i)))) = flatOf (wAt i 2 2) := by
  have h1 : (i 1).val < 94 := (i 1).isLt
  have h2 : (i 2).val < 94 := (i 2).isLt
  coords3

/-! ## The reference's value -/

/-- THE REFERENCE IS THE FILTER: its last stage, read at any output position through every operation before it, is the
    zero word plus the nine products in row-major order of the offsets, added from the left; the zero is absorbed and the
    factors sit where the specification reads them. -/
theorem value_eq (x0 : (⟨S32x96x96x128, .f32⟩ : BufTy).Contents (Elt Ideal)) (x1 : (⟨S8836x9x1, .f32⟩ : BufTy).Contents (Elt Ideal)) :
    val_main_v64 (F := Ideal) x0 x1 = filter (F := Ideal) x0 x1 := by
  funext i
  simp only [val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply]
  rw [zero_word_add]
  rw [img_0_0 i, img_0_1 i, img_0_2 i, img_1_0 i, img_1_1 i, img_1_2 i, img_2_0 i, img_2_1 i, img_2_2 i,
    wt_0_0 i, wt_0_1 i, wt_0_2 i, wt_1_0 i, wt_1_1 i, wt_1_2 i, wt_2_0 i, wt_2_1 i, wt_2_2 i]
  rfl

/-- The term the reference's run ends with is the filter of the argument arrays. -/
theorem result_eq (m : (ℓ : Loc nD τ sig) → Buf (Elt Ideal) ℓ) (c : Dev nD) :
    Cert.ReferenceIdeal.Value.res_main_v64 m c
      = filter (F := Ideal) (m ((c.tc : Thread nD τ).loc main_arg0)) (m ((c.tc : Thread nD τ).loc main_arg1)) :=
  (val_main_v64_eq m c).trans (value_eq _ _)

end Cert.ReferenceIdeal.RefValue

end
-- ==== Proof.lean ====
/-
  A locally connected 3×3 filter: the kernel and its reference compute the same array on the extended reals.

  Both programs take an image x : [32, 96, 96, 128] and weights k : [8836, 9, 1] — nine weights for each of the
  94 · 94 output positions, shared by all channels — and return, at (b, i, j, c),

      Σ over (di, dj) in row-major order, added from the left, of   x[b, i + di, j + dj, c] · k[94·i + j, 3·di + dj, 0]

  (Proof/FilterSpec.lean). The reference starts the sum from an array of zeros and reads offset (di, dj) out of the
  weights reshaped to [94, 94, 3, 3] (Proof/RefFilter.lean); the kernel first lays the weights out offset-first,
  [9, 94, 94] (Proof/KernelWeights.lean), then in each of 16 grid steps filters two images, starting the sum from its
  first product (Proof/KernelBlock.lean), and the 16 output blocks tile the output (Proof/KernelWhole.lean). The two
  sums have the same nine products in the same order, so no law of the arithmetic is needed beyond 0 + a = a, which holds
  at every extended real: finiteness of the inputs is never used.

  The three frames are the generated ones (the reference's is its generated run with the result dropped); the ideal
  pass rewrote nothing in the kernel, so the idealization claim is `True`.
-/
import proofs.«177646_j14370960573268_2_alg».proof.Defs
import proofs.«177646_j14370960573268_2_alg».proof.Proof.Gen.Kernel
import proofs.«177646_j14370960573268_2_alg».proof.Proof.Gen.Kernel.Skeleton
import proofs.«177646_j14370960573268_2_alg».proof.Proof.Gen.Kernel.Launch
import proofs.«177646_j14370960573268_2_alg».proof.Proof.Gen.Kernel.Points
import proofs.«177646_j14370960573268_2_alg».proof.Proof.Gen.Kernel.Frame
import proofs.«177646_j14370960573268_2_alg».proof.Proof.Gen.KernelIdeal
import proofs.«177646_j14370960573268_2_alg».proof.Proof.Gen.KernelIdeal.Skeleton
import proofs.«177646_j14370960573268_2_alg».proof.Proof.Gen.KernelIdeal.Launch
import proofs.«177646_j14370960573268_2_alg».proof.Proof.Gen.KernelIdeal.Points
import proofs.«177646_j14370960573268_2_alg».proof.Proof.Gen.KernelIdeal.Frame
import proofs.«177646_j14370960573268_2_alg».proof.Proof.Gen.ReferenceIdeal
import proofs.«177646_j14370960573268_2_alg».proof.Proof.Gen.Pre_finite_inputs
import proofs.«177646_j14370960573268_2_alg».proof.Proof.Gen.ReferenceIdeal.Run
import proofs.«177646_j14370960573268_2_alg».proof.Proof.Gen.ReferenceIdeal.Read
import proofs.«177646_j14370960573268_2_alg».proof.Proof.KernelWhole
import proofs.«177646_j14370960573268_2_alg».proof.Proof.RefFilter
import Idealize.ShloMosaic.Adequacy
import Idealize.ShloMosaic.Init

noncomputable section

namespace Cert.Proof

open Idealize.ShloMosaic Idealize.ShloMosaic.TcCoe Idealize.SL.Sem Cert.LocalFilter

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and k, the kernel's output array and the reference's result are both the filter of
    x and k: the kernel's by the 16 blocks (`Whole.run`), the reference's by reading its operations at an index
    (`RefValue.result_eq`). -/
theorem algebraic : Cert.algebraic_KernelIdeal_ReferenceIdeal := by
  intro m ρ m' ρ' _ hagree
  refine ⟨fun c => filter (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
